-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S_ : Shape := ⟨0, ![]⟩
abbrev S4x256x64 : Shape := ⟨3, ![4, 256, 64]⟩
abbrev S4x256 : Shape := ⟨2, ![4, 256]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x256 : Shape := ⟨3, ![4, 4096, 256]⟩
abbrev S4x1x128 : Shape := ⟨3, ![4, 1, 128]⟩
abbrev S1x512x256 : Shape := ⟨3, ![1, 512, 256]⟩
abbrev S1x256x4096 : Shape := ⟨3, ![1, 256, 4096]⟩
abbrev S1x1x128 : Shape := ⟨3, ![1, 1, 128]⟩
abbrev S8x4096 : Shape := ⟨2, ![8, 4096]⟩
abbrev S512x256 : Shape := ⟨2, ![512, 256]⟩
abbrev S256x4096 : Shape := ⟨2, ![256, 4096]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 53
  | .vmem => 7
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S4x256x64, .f32⟩
  | .hbm, ⟨4, _⟩ => ⟨S_, .f32⟩
  | .hbm, ⟨5, _⟩ => ⟨S4x256x64, .f32⟩
  | .hbm, ⟨6, _⟩ => ⟨S4x256x64, .f32⟩
  | .hbm, ⟨7, _⟩ => ⟨S_, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256x1x1, .f32⟩
  | .hbm, ⟨18, _⟩ => ⟨S4x256x64x64, .f32⟩
  | .hbm, ⟨19, _⟩ => ⟨S4x256x64x64, .f32⟩
  | .hbm, ⟨20, _⟩ => ⟨S4x256x64x64, .f32⟩
  | .hbm, ⟨21, _⟩ => ⟨S4x256x64x64, .f32⟩
  | .hbm, ⟨22, _⟩ => ⟨S4x256x64x64, .f32⟩
  | .hbm, ⟨23, _⟩ => ⟨S_, .f32⟩
  | .hbm, ⟨24, _⟩ => ⟨S4x64x64, .f32⟩
  | .hbm, ⟨25, _⟩ => ⟨S4x1x64x64, .f32⟩
  | .hbm, ⟨26, _⟩ => ⟨S4x1x64x64, .f32⟩
  | .hbm, ⟨27, _⟩ => ⟨S4x256x64x64, .f32⟩
  | .hbm, ⟨28, _⟩ => ⟨S4x256x64x64, .f32⟩
  | .hbm, ⟨29, _⟩ => ⟨S4x256x64x64, .f32⟩
  | .hbm, ⟨30, _⟩ => ⟨S_, .f32⟩
  | .hbm, ⟨31, _⟩ => ⟨S4x64x64, .f32⟩
  | .hbm, ⟨32, _⟩ => ⟨S4x1x64x64, .f32⟩
  | .hbm, ⟨33, _⟩ => ⟨S4x1x64x64, .f32⟩
  | .hbm, ⟨34, _⟩ => ⟨S4x256x64x64, .f32⟩
  | .hbm, ⟨35, _⟩ => ⟨S4x256x64x64, .f32⟩
  | .hbm, ⟨36, _⟩ => ⟨S4x256x4096, .f32⟩
  | .hbm, ⟨37, _⟩ => ⟨S4x4096x256, .f32⟩
  | .hbm, ⟨38, _⟩ => ⟨S4x256x4096, .f32⟩
  | .hbm, ⟨39, _⟩ => ⟨S4x4096x256, .bf16⟩
  | .hbm, ⟨40, _⟩ => ⟨S4x256x4096, .bf16⟩
  | .hbm, ⟨41, _⟩ => ⟨S4x1x128, .f32⟩
  | .hbm, ⟨42, _⟩ => ⟨S4x1x1, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x512x256, .bf16⟩
  | .local _ .vmem, ⟨1, _⟩ => ⟨S1x512x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x1x128, .f32⟩
  | .local _ .vmem, ⟨5, _⟩ => ⟨S1x1x128, .f32⟩
  | .local _ .vmem, ⟨6, _⟩ => ⟨S8x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_18 : BitVec 32 := 0#32
  let v38 : BitVec 1 := Scalar.cmpi .ne v37 c0_i32_18
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x256x64x64_S4x256x64_d3 : S4x256x64x64.ReducesTo [3] S4x256x64
  h_S_ : 0 < S_.numel
  bcast_S_S4x256x64 : S_.BroadcastsInDim S4x256x64 (![] : Fin 0 → Fin S4x256x64.rank)
  reducesTo_S4x256x64_S4x256_d2 : S4x256x64.ReducesTo [2] S4x256
  bcast_S_S4x256 : S_.BroadcastsInDim S4x256 (![] : Fin 0 → Fin S4x256.rank)
  reducesTo_S4x256_S256_d0 : S4x256.ReducesTo [0] S256
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  transposes_S4x256x4096_S4x4096x256_0_2_1 : S4x256x4096.Transposes [0, 2, 1] S4x4096x256
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S512x4096_S512 : S512x4096.Reduces [1] S512
  shapeCasts_S512_S512x1 : S512.ShapeCasts S512x1
  broadcasts_S512x1_S512x4096 : S512x1.Broadcasts S512x4096
  reduces_S512x4096_S4096 : S512x4096.Reduces [0] S4096
  shapeCasts_S4096_S1x4096 : S4096.ShapeCasts S1x4096
  shapeCasts_S1x4096_S1x4096 : S1x4096.ShapeCasts S1x4096
  broadcasts_S1x4096_S8x4096 : S1x4096.Broadcasts S8x4096
  inb_S8x4096_S1x4096_0_0 : ∀ a, (![0, 0] : Fin 2 → Nat) a + S1x4096.size a ≤ S8x4096.size a
  h_S1x4096 : 0 < S1x4096.numel
  reduces_S1x4096_S1 : S1x4096.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  bcast_S_S4 : S_.BroadcastsInDim S4 (![] : Fin 0 → Fin S4.rank)
  reducesTo_S4_S_d0 : S4.ReducesTo [0] S_
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x4096x256.size a
  hwx0_0 : ∀ i : grid0.Coords, EltTy.bits .bf16 = 32 ∨ (Rect.block (s := S4x4096x256) S1x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S4x256x4096.size a
  hwx0_1 : ∀ i : grid0.Coords, EltTy.bits .bf16 = 32 ∨ (Rect.block (s := S4x256x4096) S1x256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v23) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S_ : Shape := ⟨0, ![]⟩
abbrev S4x256x64 : Shape := ⟨3, ![4, 256, 64]⟩
abbrev S4x256 : Shape := ⟨2, ![4, 256]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 78
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S4x256x64, .f32⟩
  | .hbm, ⟨4, _⟩ => ⟨S_, .f32⟩
  | .hbm, ⟨5, _⟩ => ⟨S4x256x64, .f32⟩
  | .hbm, ⟨6, _⟩ => ⟨S4x256x64, .f32⟩
  | .hbm, ⟨7, _⟩ => ⟨S_, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256x1x1, .f32⟩
  | .hbm, ⟨18, _⟩ => ⟨S4x256x64x64, .f32⟩
  | .hbm, ⟨19, _⟩ => ⟨S4x256x64x64, .f32⟩
  | .hbm, ⟨20, _⟩ => ⟨S4x256x64x64, .f32⟩
  | .hbm, ⟨21, _⟩ => ⟨S4x256x64x64, .f32⟩
  | .hbm, ⟨22, _⟩ => ⟨S4x256x64x64, .f32⟩
  | .hbm, ⟨23, _⟩ => ⟨S_, .f32⟩
  | .hbm, ⟨24, _⟩ => ⟨S4x64x64, .f32⟩
  | .hbm, ⟨25, _⟩ => ⟨S4x1x64x64, .f32⟩
  | .hbm, ⟨26, _⟩ => ⟨S4x1x64x64, .f32⟩
  | .hbm, ⟨27, _⟩ => ⟨S4x256x64x64, .f32⟩
  | .hbm, ⟨28, _⟩ => ⟨S4x256x64x64, .f32⟩
  | .hbm, ⟨29, _⟩ => ⟨S4x256x64x64, .f32⟩
  | .hbm, ⟨30, _⟩ => ⟨S_, .f32⟩
  | .hbm, ⟨31, _⟩ => ⟨S4x64x64, .f32⟩
  | .hbm, ⟨32, _⟩ => ⟨S4x1x64x64, .f32⟩
  | .hbm, ⟨33, _⟩ => ⟨S4x1x64x64, .f32⟩
  | .hbm, ⟨34, _⟩ => ⟨S4x256x64x64, .f32⟩
  | .hbm, ⟨35, _⟩ => ⟨S4x256x64x64, .f32⟩
  | .hbm, ⟨36, _⟩ => ⟨S4x256x4096, .f32⟩
  | .hbm, ⟨37, _⟩ => ⟨S4x256x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S4x4096x4096, .f32⟩
  | .hbm, ⟨61, _⟩ => ⟨S4x4096x4096, .f32⟩
  | .hbm, ⟨62, _⟩ => ⟨S_, .f32⟩
  | .hbm, ⟨63, _⟩ => ⟨S4x4096, .f32⟩
  | .hbm, ⟨64, _⟩ => ⟨S_, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_15 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  reducesTo_S4x256x64x64_S4x256x64_d3 : S4x256x64x64.ReducesTo [3] S4x256x64
  h_S_ : 0 < S_.numel
  bcast_S_S4x256x64 : S_.BroadcastsInDim S4x256x64 (![] : Fin 0 → Fin S4x256x64.rank)
  reducesTo_S4x256x64_S4x256_d2 : S4x256x64.ReducesTo [2] S4x256
  bcast_S_S4x256 : S_.BroadcastsInDim S4x256 (![] : Fin 0 → Fin S4x256.rank)
  reducesTo_S4x256_S256_d0 : S4x256.ReducesTo [0] S256
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.Pieces.lean ====
/-
  What one run of the body leaves behind, as pure functions of what it loaded. At a first tile the
  accumulator is cleared and then updated, so it ends at the update of the zero block; at a later tile it
  ends at the update of what the tile before left; at a last tile the output block is, besides, the
  mean of the first row of the updated accumulator, repeated along the lanes.
-/
import proofs.«131593_j45775761441353_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Contextual.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile: the accumulator ends at the update of what it held. -/
theorem scratch_B (c : Dev nD) (i : grid0.Coords) (arg2 : Memref sig .tc .vmem S1x512x256 .bf16) (harg2 : arg2.IsWhole) (arg3 : Memref sig .tc .vmem S1x256x4096 .bf16) (harg3 : arg3.IsWhole) (arg4 : Memref sig .tc .vmem S1x1x128 .f32) (harg4 : arg4.IsWhole) (arg5 : Memref sig .tc .vmem S8x4096 .f32) (harg5 : arg5.IsWhole) (hc0 : ¬cond0_0 i) (hc1 : ¬cond0_1 i)
    (x0 : Vec F S1x512x256 .bf16) (x1 : Vec F S1x256x4096 .bf16) (xs0 : Vec F S8x4096 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1x512x256) hz3, View.ld_unit_zero (S := S1x256x4096) hz3, View.ld_unit_zero (S := S8x4096) hz2]

/-- A last tile: the accumulator likewise. -/
theorem scratch_C (c : Dev nD) (i : grid0.Coords) (arg2 : Memref sig .tc .vmem S1x512x256 .bf16) (harg2 : arg2.IsWhole) (arg3 : Memref sig .tc .vmem S1x256x4096 .bf16) (harg3 : arg3.IsWhole) (arg4 : Memref sig .tc .vmem S1x1x128 .f32) (harg4 : arg4.IsWhole) (arg5 : Memref sig .tc .vmem S8x4096 .f32) (harg5 : arg5.IsWhole) (hc0 : ¬cond0_0 i) (hc1 : cond0_1 i)
    (x0 : Vec F S1x512x256 .bf16) (x1 : Vec F S1x256x4096 .bf16) (xs0 : Vec F S8x4096 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1x512x256) hz3, View.ld_unit_zero (S := S1x256x4096) hz3, View.ld_unit_zero (S := S8x4096) hz2]

/-- A first tile: the accumulator ends at the update of the zero block. -/
theorem scratch_A (c : Dev nD) (i : grid0.Coords) (arg2 : Memref sig .tc .vmem S1x512x256 .bf16) (harg2 : arg2.IsWhole) (arg3 : Memref sig .tc .vmem S1x256x4096 .bf16) (harg3 : arg3.IsWhole) (arg4 : Memref sig .tc .vmem S1x1x128 .f32) (harg4 : arg4.IsWhole) (arg5 : Memref sig .tc .vmem S8x4096 .f32) (harg5 : arg5.IsWhole) (hc0 : cond0_0 i) (hc1 : ¬cond0_1 i)
    (x0 : Vec F S1x512x256 .bf16) (x1 : Vec F S1x256x4096 .bf16) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x4096) hz2, View.readCov_unit_zero (S := S8x4096) _ hz2]
  simp only [View.readAt_eq_ld, harg2.read_unread, harg3.read_unread,
    View.ld_unit_zero (S := S1x512x256) hz3, View.ld_unit_zero (S := S1x256x4096) hz3, View.ld_unit_zero (S := S8x4096) hz2]

/-- The first row of an accumulator, read through the one-row rectangle at the origin. -/
def row0 (v : Vec F S8x4096 .f32) : Vec F S1x4096 .f32 :=
  fun j => v ((Rect.unit (s := S8x4096) ![0, 0] S1x4096.size inb_S8x4096_S1x4096_0_0).toLoadRect.idx j)

/-- A last tile: the output block is the mean payload of the first row of the updated accumulator. -/
theorem out_C (c : Dev nD) (i : grid0.Coords) (arg2 : Memref sig .tc .vmem S1x512x256 .bf16) (harg2 : arg2.IsWhole) (arg3 : Memref sig .tc .vmem S1x256x4096 .bf16) (harg3 : arg3.IsWhole) (arg4 : Memref sig .tc .vmem S1x1x128 .f32) (harg4 : arg4.IsWhole) (arg5 : Memref sig .tc .vmem S8x4096 .f32) (harg5 : arg5.IsWhole) (hc0 : ¬cond0_0 i) (hc1 : cond0_1 i)
    (x0 : Vec F S1x512x256 .bf16) (x1 : Vec F S1x256x4096 .bf16) (xs0 : Vec F S8x4096 .f32) :
    out0_C_2 c i arg2 harg2 arg3 harg3 arg4 harg4 arg5 harg5 hc0 hc1 x0 x1 xs0 = k0_pay1 (row0 (k0_pay3 x0 x1 xs0)) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_eq_canon', View.canon_unit_zero hz2]
  simp only [View.readAt_eq_ld, harg2.read_unread, harg3.read_unread, harg5.read_unread,
    View.ld_unit_zero (S := S1x512x256) hz3, View.ld_unit_zero (S := S1x256x4096) hz3, View.ld_unit_zero (S := S8x4096) hz2]
  rfl

end Cert.Contextual.Pieces

end
-- ==== Proof.Consts.lean ====
/-
  The float constants the two programs spell, as the extended reals their bit patterns denote.
  One, two, one half and 4096 are exact dyadics; the small constant added to the minimal distance
  is a positive real; the two infinities are the lattice's top and bottom.
-/
import Idealize.ShloMosaic.PureOps.Ideal

noncomputable section

namespace Cert.Contextual

open Idealize.ShloMosaic

/-- The constant the distances are taken from. -/
def cOne : EReal := Ideal.ofBits .f32 0x3F800000#32
/-- The small constant added to a row's minimal distance. -/
def cEps : EReal := Ideal.ofBits .f32 0x3727C5AC#32
/-- The factor the kernel multiplies by. -/
def cTwo : EReal := Ideal.ofBits .f32 0x40000000#32
/-- The divisor the reference divides by. -/
def cHalf : EReal := Ideal.ofBits .f32 0x3F000000#32
/-- The zero a sum or the running maximum starts from. -/
def cZero : EReal := Ideal.ofBits .f32 0x00000000#32
/-- The value a maximum starts from. -/
def cNinf : EReal := Ideal.ofBits .f32 0xFF800000#32
/-- The value a minimum starts from. -/
def cPinf : EReal := Ideal.ofBits .f32 0x7F800000#32
/-- The number of columns a mean divides by. -/
def cCols : EReal := Ideal.ofBits .f32 0x45800000#32

theorem cOne_eq : cOne = 1 := by
  unfold cOne; simp [Ideal.ofBits, Ideal.ieee, -EReal.coe_mul]; norm_num

theorem cTwo_eq : cTwo = ((2 : ℝ) : EReal) := by
  unfold cTwo; simp [Ideal.ofBits, Ideal.ieee, -EReal.coe_mul]; norm_num

theorem cHalf_eq : cHalf = ((1 / 2 : ℝ) : EReal) := by
  unfold cHalf; simp [Ideal.ofBits, Ideal.ieee, -EReal.coe_mul]; norm_num

theorem cZero_eq : cZero = 0 := by
  unfold cZero; simp [Ideal.ofBits, Ideal.ieee]

theorem cNinf_eq : cNinf = ⊥ := by
  unfold cNinf; simp [Ideal.ofBits, Ideal.ieee]

theorem cPinf_eq : cPinf = ⊤ := by
  unfold cPinf; simp [Ideal.ofBits, Ideal.ieee]

/-- The small constant is a positive real. -/
theorem cEps_pos : ∃ r : ℝ, 0 < r ∧ cEps = (r : EReal) := by
  refine ⟨(10995116 : ℝ) / 2 ^ 40, by positivity, ?_⟩
  unfold cEps; simp [Ideal.ofBits, Ideal.ieee, -EReal.coe_mul]; norm_num

end Cert.Contextual

end
-- ==== Proof.Spec.lean ====
/-
  The contextual similarity of one batch entry, as a function of its similarity matrix `s`
  (rows `p`, columns `q`). Everything is row-wise: from a row of similarities take the distances
  `1 - s`, divide by the row's minimal distance plus a small constant, map through
  `exp ((1 - ·) / (1/2))`, and normalise by the row's sum. The result of a batch entry is the mean over
  the columns of the column-wise maximum of these normalised weights.

  Two spellings of a row are given. The first takes the minimal distance as a minimum of distances and divides
  by one half; the second takes it as one minus the maximal similarity and multiplies by two. The running
  maximum over a prefix of the rows, started from zero, is what an accumulator holds after some row tiles.
-/
import proofs.«131593_j45775761441353_1_alg».proof.Proof.Consts
import Idealize.ShloMosaic.Lib.ValueIdx

noncomputable section

namespace Cert.Contextual

open Idealize.ShloMosaic

variable {P Q : ℕ}

/-! ## A row, first spelling: minimum of the distances, division by one half -/

/-- The minimal distance of a row. -/
def dmin (row : Fin Q → EReal) : EReal :=
  (Finset.univ : Finset (Fin Q)).fold min cPinf (fun q => cOne - row q)

/-- The unnormalised weight of column `q` in a row. -/
def wgt (row : Fin Q → EReal) (q : Fin Q) : EReal :=
  Ideal.exp (Ideal.div (cOne - Ideal.div (cOne - row q) (dmin row + cEps)) cHalf)

/-- The normalised weight of column `q` in a row. -/
def cx (row : Fin Q → EReal) (q : Fin Q) : EReal :=
  Ideal.div (wgt row q) (cZero + ∑ q' : Fin Q, wgt row q')

/-! ## A row, second spelling: one minus the maximal similarity, multiplication by two -/

/-- The minimal distance of a row, from its maximal similarity. -/
def dminK (row : Fin Q → EReal) : EReal :=
  cOne - (Finset.univ : Finset (Fin Q)).fold max cNinf row

/-- The unnormalised weight, with the factor two. -/
def wgtK (row : Fin Q → EReal) (q : Fin Q) : EReal :=
  Ideal.exp ((cOne - Ideal.div (cOne - row q) (dminK row + cEps)) * cTwo)

/-- The normalised weight, second spelling. -/
def cxK (row : Fin Q → EReal) (q : Fin Q) : EReal :=
  Ideal.div (wgtK row q) (∑ q' : Fin Q, wgtK row q')

/-! ## Over the rows -/

/-- The column-wise maximum of the normalised weights over all rows. -/
def colmax (s : Fin P → Fin Q → EReal) (q : Fin Q) : EReal :=
  (Finset.univ : Finset (Fin P)).fold max cNinf (fun p => cx (s p) q)

/-- The mean over the columns of the column-wise maximum. -/
def rowmean (s : Fin P → Fin Q → EReal) : EReal :=
  Ideal.div (cZero + ∑ q : Fin Q, colmax s q) cCols

/-- The similarity of position `p` of the first feature array and position `q` of the second, in batch
    entry `n`: the sum over the 256 channels of the products. -/
def sim (A B : (⟨3, ![4, 256, 4096]⟩ : Shape).Idx → EReal) (n : Fin 4) (p q : Fin 4096) : EReal :=
  ∑ c : Fin 256, A (ValueIdx.ix3 n c p) * B (ValueIdx.ix3 n c q)

/-- The maximum, started from zero, of `f` over the rows below `k`. -/
def runmax (f : Fin P → EReal) (k : ℕ) : EReal :=
  ((Finset.univ : Finset (Fin P)).filter (fun p => p.val < k)).fold max cZero f

end Cert.Contextual

end
-- ==== Proof.Payload.lean ====
/-
  The body's arithmetic, read entry by entry on the extended reals. A tile's similarity is a sum over the
  256 channels of products; from it each row's weights are the second spelling of the specification
  (one minus the row's maximal similarity, the factor two); the tile's column-wise maxima are folded into the
  accumulator, every one of its eight rows alike; the output is the mean over the columns of the accumulator's
  first row, repeated along the lanes.
-/
import proofs.«131593_j45775761441353_1_alg».proof.Proof.Gen.KernelIdeal.Skeleton
import proofs.«131593_j45775761441353_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.Contextual.Payload

open Cert.KernelIdeal Cert.KernelIdeal.Gen Cert.Contextual ValueIdx

/-! ## The update of the accumulator, in stages -/

/-- The tile's similarities: rows of the first block against columns of the second. -/
def stS (x0 : Vec Ideal S1x512x256 .bf16) (x1 : Vec Ideal S1x256x4096 .bf16) : FVec Ideal S512x4096 .f32 :=
  have v4 : FVec Ideal S512x256 .bf16 := shapeCast S512x256 x0 shapeCasts_S1x512x256_S512x256
  have v6 : FVec Ideal S256x4096 .bf16 := shapeCast S256x4096 x1 shapeCasts_S1x256x4096_S256x4096
  have cst : FVec Ideal S512x4096 .f32 := constant S512x4096 .f32 0x00000000#32
  matmul dot_S512x256_S256x4096_S512x4096_1_0_0_1_n_n none v4 v6 cst

/-- Each row's minimal distance plus the small constant, as a column. -/
def stDen (v7 : FVec Ideal S512x4096 .f32) : FVec Ideal S512x1 .f32 :=
  have v8 : FVec Ideal S512 .f32 := multiReduction .maximumf [1] S512 v7 0xFF800000#32 reduces_S512x4096_S512 (.inl rfl) rfl
  have v9 : FVec Ideal S512x1 .f32 := shapeCast S512x1 v8 shapeCasts_S512_S512x1
  have cst_7 : Ideal .f32 := Scalar.ofBits .f32 0x3F800000#32
  have v10 : FVec Ideal S512x1 .f32 := broadcast S512x1 cst_7
  have v11 : FVec Ideal S512x1 .f32 := subf v10 v9
  have cst_9 : Ideal .f32 := Scalar.ofBits .f32 0x3727C5AC#32
  have v14 : FVec Ideal S512x1 .f32 := broadcast S512x1 cst_9
  addf v11 v14

/-- The unnormalised weights of a tile of similarities. -/
def stW (v7 : FVec Ideal S512x4096 .f32) : FVec Ideal S512x4096 .f32 :=
  have cst_7 : Ideal .f32 := Scalar.ofBits .f32 0x3F800000#32
  have v12 : FVec Ideal S512x4096 .f32 := broadcast S512x4096 cst_7
  have v13 : FVec Ideal S512x4096 .f32 := subf v12 v7
  have v16 : FVec Ideal S512x4096 .f32 := broadcastTo S512x4096 (stDen v7) broadcasts_S512x1_S512x4096
  have v17 : FVec Ideal S512x4096 .f32 := divf v13 v16
  have v19 : FVec Ideal S512x4096 .f32 := subf v12 v17
  have cst_11 : Ideal .f32 := Scalar.ofBits .f32 0x40000000#32
  have v20 : FVec Ideal S512x4096 .f32 := broadcast S512x4096 cst_11
  have v21 : FVec Ideal S512x4096 .f32 := mulf v19 v20
  exp v21

/-- The weights normalised by their row sums. -/
def stC (v22 : FVec Ideal S512x4096 .f32) : FVec Ideal S512x4096 .f32 :=
  have v23 : FVec Ideal S512 .f32 := multiReduction .add [1] S512 v22 0x00000000#32 reduces_S512x4096_S512 (.inl rfl) rfl
  have v24 : FVec Ideal S512x1 .f32 := shapeCast S512x1 v23 shapeCasts_S512_S512x1
  have v25 : FVec Ideal S512x4096 .f32 := broadcastTo S512x4096 v24 broadcasts_S512x1_S512x4096
  divf v22 v25

/-- The column-wise maxima of a tile, as one row. -/
def stM (v26 : FVec Ideal S512x4096 .f32) : FVec Ideal S1x4096 .f32 :=
  have v27 : FVec Ideal S4096 .f32 := multiReduction .maximumf [0] S4096 v26 0xFF800000#32 reduces_S512x4096_S4096 (.inl rfl) rfl
  have v28 : FVec Ideal S1x4096 .f32 := shapeCast S1x4096 v27 shapeCasts_S4096_S1x4096
  shapeCast S1x4096 v28 shapeCasts_S1x4096_S1x4096

/-- The accumulator's eight rows each raised to the row of maxima. -/
def stU (v29 : Vec Ideal S8x4096 .f32) (v30 : FVec Ideal S1x4096 .f32) : FVec Ideal S8x4096 .f32 :=
  have v31 : FVec Ideal S8x4096 .f32 := broadcastTo S8x4096 v30 broadcasts_S1x4096_S8x4096
  have v32 : FVec Ideal S8x4096 .f32 := maximumf v29 v31
  shapeCast S8x4096 v32 shapeCasts_S8x4096_S8x4096

/-- The update is the composition of the stages. -/
theorem pay3_eq (x0 : Vec Ideal S1x512x256 .bf16) (x1 : Vec Ideal S1x256x4096 .bf16) (acc : Vec Ideal S8x4096 .f32) :
    k0_pay3 (F := Ideal) x0 x1 acc = stU acc (stM (stC (stW (stS x0 x1)))) := rfl

/-! ## Each stage at an entry -/

/-- Reading a column `[512, 1]` broadcast along the 4096 columns. -/
theorem bcastCol_apply (v : FVec Ideal S512x1 .f32) (p : Fin 512) (q : Fin 4096) :
    broadcastTo S512x4096 v broadcasts_S512x1_S512x4096 (ix2 p q) = v (ix2 p (0 : Fin 1)) :=
  broadcastTo_apply v broadcasts_S512x1_S512x4096 (ix2 p q) (ix2 p (0 : Fin 1)) (fun a => match a with
    | ⟨0, _⟩ => by show p.val = if (512 : Nat) = 1 then 0 else p.val; rw [if_neg (by decide)]
    | ⟨1, _⟩ => by show (0 : Nat) = if (1 : Nat) = 1 then 0 else _; rw [if_pos rfl])

/-- Reading a vector `[512]` viewed as a column `[512, 1]`. -/
theorem castCol_apply (v : FVec Ideal S512 .f32) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]; show p.val = p.val * 1 + 0; omega)

/-- The accumulator's row `r`, column `q`, is raised to column `q` of the row of maxima. -/
theorem stU_apply (acc : Vec Ideal S8x4096 .f32) (lm : FVec Ideal S1x4096 .f32) (r : Fin 8) (q : Fin 4096) :
    stU acc lm (ix2 r q) = max (acc (ix2 r q)) (lm (ix2 (0 : Fin 1) q)) := by
  unfold stU
  rw [shapeCast_self, maximumf_apply]
  refine congrArg (max (acc (ix2 r q))) ?_
  exact broadcastTo_apply lm broadcasts_S1x4096_S8x4096 (ix2 r q) (ix2 (0 : Fin 1) q) (fun a => match a with
    | ⟨0, _⟩ => by show (0 : Nat) = if (1 : Nat) = 1 then 0 else _; rw [if_pos rfl]
    | ⟨1, _⟩ => by show q.val = if (4096 : Nat) = 1 then 0 else q.val; rw [if_neg (by decide)])

/-- Column `q` of the row of maxima is the maximum over the tile's 512 rows. -/
theorem stM_apply (v : FVec Ideal S512x4096 .f32) (q : Fin 4096) :
    stM v (ix2 (0 : Fin 1) q) = (Finset.univ : Finset (Fin 512)).fold max cNinf (fun p => v (ix2 p q)) := by
  unfold stM
  rw [shapeCast_self]
  refine (shapeCast_apply _ shapeCasts_S4096_S1x4096 (ix2 (0 : Fin 1) q) (ix1 q) (by
    rw [Shape.rowMajor_val_one, Shape.rowMajor_val_two]; show q.val = 0 * 4096 + q.val; omega)).trans ?_
  refine (Ideal.multiReduction_maximumf_single v 0xFF800000#32 reduces_S512x4096_S4096 (.inl rfl) rfl (ix1 q)).trans ?_
  show (Finset.univ : Finset (Fin 512)).fold max cNinf _ = _
  refine congrArg (fun f => (Finset.univ : Finset (Fin 512)).fold max cNinf f) (funext fun p => ?_)
  exact congrArg v (funext fun a => Fin.ext (by match a with | ⟨0, _⟩ => rfl | ⟨1, _⟩ => rfl))

/-- A normalised weight is the weight over its row's sum. -/
theorem stC_apply (w : FVec Ideal S512x4096 .f32) (p : Fin 512) (q : Fin 4096) :
    stC w (ix2 p q) = Ideal.div (w (ix2 p q)) (∑ q' : Fin 4096, w (ix2 p q')) := by
  unfold stC
  rw [divf_apply]
  refine congrArg (Ideal.div (w (ix2 p q))) ?_
  refine (bcastCol_apply _ p q).trans ?_
  refine (castCol_apply _ p).trans ?_
  refine (Ideal.multiReduction_add_single w 0x00000000#32 reduces_S512x4096_S512 (.inl rfl) rfl (ix1 p)).trans ?_
  show ∑ k : Fin 4096, _ = _
  exact Finset.sum_congr rfl fun k _ => congrArg w (funext fun a => Fin.ext (by match a with | ⟨0, _⟩ => rfl | ⟨1, _⟩ => rfl))

/-- A row's denominator is its minimal distance, second spelling, plus the small constant. -/
theorem stDen_apply (s : FVec Ideal S512x4096 .f32) (p : Fin 512) :
    stDen s (ix2 p (0 : Fin 1)) = dminK (fun q' : Fin 4096 => s (ix2 p q')) + cEps := by
  unfold stDen
  rw [addf_apply, subf_apply, broadcast_apply, broadcast_apply]
  refine congrArg (fun z : EReal => cOne - z + cEps) ?_
  refine (castCol_apply _ p).trans ?_
  refine (Ideal.multiReduction_maximumf_single s 0xFF800000#32 reduces_S512x4096_S512 (.inl rfl) rfl (ix1 p)).trans ?_
  show (Finset.univ : Finset (Fin 4096)).fold max cNinf _ = _
  refine congrArg (fun f => (Finset.univ : Finset (Fin 4096)).fold max cNinf f) (funext fun k => ?_)
  exact congrArg s (funext fun a => Fin.ext (by match a with | ⟨0, _⟩ => rfl | ⟨1, _⟩ => rfl))

/-- A weight is the second spelling's weight of its row. -/
theorem stW_apply (s : FVec Ideal S512x4096 .f32) (p : Fin 512) (q : Fin 4096) :
    stW s (ix2 p q) = wgtK (fun q' : Fin 4096 => s (ix2 p q')) q := by
  unfold stW
  rw [show ∀ v : FVec Ideal S512x4096 .f32, exp v (ix2 p q) = Ideal.exp (v (ix2 p q)) from fun _ => rfl]
  rw [mulf_apply, subf_apply, divf_apply, subf_apply, broadcast_apply, broadcast_apply, bcastCol_apply, stDen_apply]
  rfl

/-- A normalised weight of the tile is the second spelling's of its row. -/
theorem stCW_apply (s : FVec Ideal S512x4096 .f32) (p : Fin 512) (q : Fin 4096) :
    stC (stW s) (ix2 p q) = cxK (fun q' : Fin 4096 => s (ix2 p q')) q := by
  rw [stC_apply, stW_apply]
  unfold cxK
  exact congrArg (Ideal.div _) (Finset.sum_congr rfl fun k _ => stW_apply s p k)

/-- A tile's similarity of row `p` and column `q`: the sum over the 256 channels of the products. -/
def tsim (x0 : Vec Ideal S1x512x256 .bf16) (x1 : Vec Ideal S1x256x4096 .bf16) (p : Fin 512) (q : Fin 4096) : EReal :=
  ∑ c : Fin 256, x0 (ix3 (0 : Fin 1) p c) * x1 (ix3 (0 : Fin 1) c q)

/-- The matrix product into a zero accumulator, read at an entry, is that sum. -/
theorem stS_apply (x0 : Vec Ideal S1x512x256 .bf16) (x1 : Vec Ideal S1x256x4096 .bf16) (p : Fin 512) (q : Fin 4096) :
    stS x0 x1 (ix2 p q) = tsim x0 x1 p q := by
  unfold stS tsim
  simp only [matmul]
  refine (Ideal.matmul_constant_zero_apply dot_S512x256_S256x4096_S512x4096_1_0_0_1_n_n none _ _ (ix2 p q)).trans ?_
  rw [← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have hl0 : (dot_S512x256_S256x4096_S512x4096_1_0_0_1_n_n.lhsIdx (ix2 p q) ((contrEquiv1 dot_S512x256_S256x4096_S512x4096_1_0_0_1_n_n 256 rfl rfl).symm k) 0).val = p.val := by
    unfold DotDims.lhsIdx
    rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
    rfl
  have hl1 : (dot_S512x256_S256x4096_S512x4096_1_0_0_1_n_n.lhsIdx (ix2 p q) ((contrEquiv1 dot_S512x256_S256x4096_S512x4096_1_0_0_1_n_n 256 rfl rfl).symm k) 1).val = k.val :=
    (dot_S512x256_S256x4096_S512x4096_1_0_0_1_n_n.lhsIdx_val_of_single rfl (ix2 p q) _).trans hk
  have hr0 : (dot_S512x256_S256x4096_S512x4096_1_0_0_1_n_n.rhsIdx (ix2 p q) ((contrEquiv1 dot_S512x256_S256x4096_S512x4096_1_0_0_1_n_n 256 rfl rfl).symm k) 0).val = k.val :=
    (dot_S512x256_S256x4096_S512x4096_1_0_0_1_n_n.rhsIdx_val_of_single rfl (ix2 p q) _).trans hk
  have hr1 : (dot_S512x256_S256x4096_S512x4096_1_0_0_1_n_n.rhsIdx (ix2 p q) ((contrEquiv1 dot_S512x256_S256x4096_S512x4096_1_0_0_1_n_n 256 rfl rfl).symm k) 1).val = q.val := by
    unfold DotDims.rhsIdx
    rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
    rfl
  have el : shapeCast S512x256 x0 shapeCasts_S1x512x256_S512x256 (dot_S512x256_S256x4096_S512x4096_1_0_0_1_n_n.lhsIdx (ix2 p q) ((contrEquiv1 dot_S512x256_S256x4096_S512x4096_1_0_0_1_n_n 256 rfl rfl).symm k))
      = x0 (ix3 (0 : Fin 1) p k) :=
    shapeCast_apply x0 shapeCasts_S1x512x256_S512x256 _ (ix3 (0 : Fin 1) p k) (by
      rw [Shape.rowMajor_val_three, Shape.rowMajor_val_two, hl0, hl1]
      show (0 * 512 + p.val) * 256 + k.val = p.val * 256 + k.val
      omega)
  have er : shapeCast S256x4096 x1 shapeCasts_S1x256x4096_S256x4096 (dot_S512x256_S256x4096_S512x4096_1_0_0_1_n_n.rhsIdx (ix2 p q) ((contrEquiv1 dot_S512x256_S256x4096_S512x4096_1_0_0_1_n_n 256 rfl rfl).symm k))
      = x1 (ix3 (0 : Fin 1) k q) :=
    shapeCast_apply x1 shapeCasts_S1x256x4096_S256x4096 _ (ix3 (0 : Fin 1) k q) (by
      rw [Shape.rowMajor_val_three, Shape.rowMajor_val_two, hr0, hr1]
      show (0 * 256 + k.val) * 4096 + q.val = k.val * 4096 + q.val
      omega)
  rw [el, er]

/-- THE UPDATE at row `r`, column `q`: the accumulator's entry raised to the maximum, over the tile's 512 rows, of the
    normalised weights (second spelling) of column `q`. -/
theorem pay3_apply (x0 : Vec Ideal S1x512x256 .bf16) (x1 : Vec Ideal S1x256x4096 .bf16) (acc : Vec Ideal S8x4096 .f32)
    (r : Fin 8) (q : Fin 4096) :
    k0_pay3 (F := Ideal) x0 x1 acc (ix2 r q)
      = max (acc (ix2 r q)) ((Finset.univ : Finset (Fin 512)).fold max cNinf (fun p => cxK (fun q' => tsim x0 x1 p q') q)) := by
  rw [pay3_eq, stU_apply, stM_apply]
  refine congrArg (max (acc (ix2 r q))) ?_
  refine congrArg (fun f => (Finset.univ : Finset (Fin 512)).fold max cNinf f) (funext fun p => ?_)
  rw [stCW_apply]
  exact congrArg (fun row => cxK row q) (funext fun q' => stS_apply x0 x1 p q')

/-- The zero block a first tile clears the accumulator to. -/
theorem pay2_apply (r : Fin 8) (q : Fin 4096) : k0_pay2 (F := Ideal) (ix2 r q) = cZero := by
  unfold k0_pay2
  rw [shapeCast_self]
  rfl

/-- THE OUTPUT at lane `l`: the mean over the columns of the row it is given. -/
theorem pay1_apply (v : Vec Ideal S1x4096 .f32) (l : Fin 128) :
    k0_pay1 (F := Ideal) v (ix3 (0 : Fin 1) (0 : Fin 1) l) = Ideal.div (∑ q : Fin 4096, v (ix2 (0 : Fin 1) q)) cCols := by
  unfold k0_pay1
  refine (broadcastTo_apply _ broadcasts_S1x1x1_S1x1x128 (ix3 (0 : Fin 1) (0 : Fin 1) l) (ix3 (0 : Fin 1) (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show (0 : Nat) = if (1 : Nat) = 1 then 0 else _; rw [if_pos rfl])).trans ?_
  rw [shapeCast_self]
  refine (shapeCast_apply _ shapeCasts_S1x1_S1x1x1 (ix3 (0 : Fin 1) (0 : Fin 1) (0 : Fin 1)) (ix2 (0 : Fin 1) (0 : Fin 1)) (by
    rw [Shape.rowMajor_val_two, Shape.rowMajor_val_three]; rfl)).trans ?_
  rw [divf_apply, broadcast_apply]
  refine congrArg (fun z => Ideal.div z cCols) ?_
  refine (shapeCast_apply _ shapeCasts_S1_S1x1 (ix2 (0 : Fin 1) (0 : Fin 1)) (ix1 (0 : Fin 1)) (by
    rw [Shape.rowMajor_val_one, Shape.rowMajor_val_two]; rfl)).trans ?_
  refine (Ideal.multiReduction_add_single v 0x00000000#32 reduces_S1x4096_S1 (.inl rfl) rfl (ix1 (0 : Fin 1))).trans ?_
  show ∑ k : Fin 4096, _ = _
  exact Finset.sum_congr rfl fun k _ => congrArg v (funext fun a => Fin.ext (by match a with | ⟨0, _⟩ => rfl | ⟨1, _⟩ => rfl))

end Cert.Contextual.Payload

end
-- ==== Proof.Blocks.lean ====
/-
  The two input blocks at a grid point. Point `t` is tile `t % 8` of batch entry `t / 8`: the first window's
  block holds rows `512 * (t % 8) + r` of that batch entry's first array, the second window's block the whole
  of its second array.
-/
import proofs.«131593_j45775761441353_1_alg».proof.Proof.Gen.KernelIdeal.Frame
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Contextual.Blocks

open Cert.KernelIdeal Cert.KernelIdeal.Gen

open ValueIdx

variable {F : FTy → Type} [FloatOps F]
variable (m : (ℓ : Loc nD τ sig) → Buf (Elt F) ℓ)

/-- Where the first window's block sits: batch entry, tile, all channels. -/
theorem idx0 : ∀ t : Fin cfg0.N, win0_0.index t 0 = t.val / 8 ∧ win0_0.index t 1 = t.val % 8 ∧ win0_0.index t 2 = 0 :=
  (by decide +kernel : ∀ t : Fin grid0.N, _)

/-- Where the second window's block sits: batch entry, all channels, all columns. -/
theorem idx1 : ∀ t : Fin cfg0.N, win0_1.index t 0 = t.val / 8 ∧ win0_1.index t 1 = 0 ∧ win0_1.index t 2 = 0 :=
  (by decide +kernel : ∀ t : Fin grid0.N, _)

/-- Where the output window's block sits: batch entry. -/
theorem idx2 : ∀ t : Fin cfg0.N, win0_2.index t 0 = t.val / 8 ∧ win0_2.index t 1 = 0 ∧ win0_2.index t 2 = 0 :=
  (by decide +kernel : ∀ t : Fin grid0.N, _)

theorem N32 : cfg0.N = 32 := N_0

/-- The batch entry of a grid point. -/
def bat (t : Fin cfg0.N) : Fin 4 := ⟨t.val / 8, by have := t.isLt; have := N32; omega⟩

/-- Row `r` of a grid point's tile, as a row of the batch entry. -/
def trow (t : Fin cfg0.N) (r : Fin 512) : Fin 4096 := ⟨512 * (t.val % 8) + r.val, by have := r.isLt; omega⟩

/-- The first block, entry by entry. -/
theorem iblk0_apply (c : Dev nD) (t : Fin cfg0.N) (r : Fin 512) (ch : Fin 256) :
    (iblk m c 0 t : Vec F S1x512x256 .bf16) (ix3 (0 : Fin 1) r ch) = V m c main_v23 (ix3 (bat t) (trow t r) ch) := by
  obtain ⟨h0, h1, h2⟩ := idx0 t
  unfold iblk
  rw [View.read_apply]
  show V m c main_v23 _ = V m c main_v23 _
  refine congrArg (V m c main_v23) (funext fun a => Fin.ext ?_)
  match a with
  | ⟨0, _⟩ => show win0_0.index t 0 * 1 + 1 * 0 = t.val / 8; rw [h0]; omega
  | ⟨1, _⟩ => show win0_0.index t 1 * 512 + 1 * r.val = 512 * (t.val % 8) + r.val; rw [h1]; omega
  | ⟨2, _⟩ => show win0_0.index t 2 * 256 + 1 * ch.val = ch.val; rw [h2]; omega

/-- The second block, entry by entry. -/
theorem iblk1_apply (c : Dev nD) (t : Fin cfg0.N) (ch : Fin 256) (q : Fin 4096) :
    (iblk m c 1 t : Vec F S1x256x4096 .bf16) (ix3 (0 : Fin 1) ch q) = V m c main_v24 (ix3 (bat t) ch q) := by
  obtain ⟨h0, h1, h2⟩ := idx1 t
  unfold iblk
  rw [View.read_apply]
  show V m c main_v24 _ = V m c main_v24 _
  refine congrArg (V m c main_v24) (funext fun a => Fin.ext ?_)
  match a with
  | ⟨0, _⟩ => show win0_1.index t 0 * 1 + 1 * 0 = t.val / 8; rw [h0]; omega
  | ⟨1, _⟩ => show win0_1.index t 1 * 256 + 1 * ch.val = ch.val; rw [h1]; omega
  | ⟨2, _⟩ => show win0_1.index t 2 * 4096 + 1 * q.val = q.val; rw [h2]; omega

end Cert.Contextual.Blocks

end
-- ==== Proof.Algebra.lean ====
/-
  Order and arithmetic facts on the extended reals that join the two spellings of a row: one minus a
  maximum is the minimum of one minus each entry, a product with two is a quotient by one half, the
  normalised weights are nonnegative, and the running maximum over a prefix of the rows grows tile by tile.
-/
import proofs.«131593_j45775761441353_1_alg».proof.Proof.Spec

noncomputable section

namespace Cert.Contextual

open Idealize.ShloMosaic

variable {P Q : ℕ}

/-! ## The running maximum -/

/-- Over no rows the running maximum is its starting value. -/
theorem runmax_zero (f : Fin P → EReal) : runmax f 0 = cZero := by
  simp [runmax]

/-- The rows below `T * j + T` are the rows below `T * j` together with the `T` rows `T * j + r`. -/
theorem runmax_step (T j : ℕ) (f : Fin P → EReal) (h : T * j + T ≤ P) :
    runmax f (T * j + T) = max (runmax f (T * j))
      ((Finset.univ : Finset (Fin T)).fold max cNinf (fun r => f ⟨T * j + r.val, by omega⟩)) := by
  unfold runmax
  rw [cNinf_eq]
  apply le_antisymm
  · rw [Finset.fold_max_le]
    refine ⟨le_max_of_le_left ?_, fun p hp => ?_⟩
    · rw [Finset.le_fold_max]; exact Or.inl le_rfl
    · rw [Finset.mem_filter] at hp
      by_cases hlt : p.val < T * j
      · apply le_max_of_le_left
        rw [Finset.le_fold_max]
        exact Or.inr ⟨p, Finset.mem_filter.mpr ⟨Finset.mem_univ _, hlt⟩, le_rfl⟩
      · apply le_max_of_le_right
        rw [Finset.le_fold_max]
        refine Or.inr ⟨⟨p.val - T * j, by omega⟩, Finset.mem_univ _, ?_⟩
        have : (⟨T * j + (p.val - T * j), by omega⟩ : Fin P) = p := by
          apply Fin.ext; simp only; omega
        rw [this]
  · apply max_le
    · rw [Finset.fold_max_le]
      refine ⟨?_, fun p hp => ?_⟩
      · rw [Finset.le_fold_max]; exact Or.inl le_rfl
      · rw [Finset.mem_filter] at hp
        rw [Finset.le_fold_max]
        exact Or.inr ⟨p, Finset.mem_filter.mpr ⟨Finset.mem_univ _, by omega⟩, le_rfl⟩
    · rw [Finset.fold_max_le]
      refine ⟨bot_le, fun r _ => ?_⟩
      rw [Finset.le_fold_max]
      refine Or.inr ⟨_, Finset.mem_filter.mpr ⟨Finset.mem_univ _, ?_⟩, le_rfl⟩
      simp only; omega

/-- Below `P` is every row, and starting from zero rather than from the bottom changes nothing once
    some entry is nonnegative. -/
theorem runmax_all (f : Fin P → EReal) (hP : 0 < P) (hf : ∀ p, 0 ≤ f p) :
    runmax f P = (Finset.univ : Finset (Fin P)).fold max cNinf f := by
  unfold runmax
  rw [cNinf_eq, cZero_eq]
  have hfil : (Finset.univ : Finset (Fin P)).filter (fun p => p.val < P) = Finset.univ := by
    apply Finset.filter_true_of_mem
    intro p _; exact p.isLt
  rw [hfil]
  apply le_antisymm
  · rw [Finset.fold_max_le]
    refine ⟨?_, fun p _ => ?_⟩
    · rw [Finset.le_fold_max]
      exact Or.inr ⟨⟨0, hP⟩, Finset.mem_univ _, hf _⟩
    · rw [Finset.le_fold_max]; exact Or.inr ⟨p, Finset.mem_univ _, le_rfl⟩
  · rw [Finset.fold_max_le]
    refine ⟨bot_le, fun p _ => ?_⟩
    rw [Finset.le_fold_max]; exact Or.inr ⟨p, Finset.mem_univ _, le_rfl⟩

/-! ## The two spellings of a row agree -/

/-- One minus the maximal similarity is the minimum of the distances: subtracting from a constant
    reverses the order, and one minus the bottom is the top. -/
theorem dminK_eq_dmin (row : Fin Q → EReal) : dminK row = dmin row := by
  unfold dminK dmin
  rw [cNinf_eq, cPinf_eq, cOne_eq]
  apply le_antisymm
  · rw [Finset.le_fold_min]
    refine ⟨le_top, fun q _ => ?_⟩
    apply EReal.sub_le_sub le_rfl
    rw [Finset.le_fold_max]; exact Or.inr ⟨q, Finset.mem_univ q, le_rfl⟩
  · have hM : (Finset.univ : Finset (Fin Q)).fold max ⊥ row ≤ (Finset.univ : Finset (Fin Q)).fold max ⊥ row :=
      le_rfl
    rw [Finset.le_fold_max] at hM
    rcases hM with hbot | ⟨q, _, hq⟩
    · rw [le_bot_iff] at hbot
      rw [hbot, EReal.sub_bot (x := 1) (by rw [← EReal.coe_one]; exact EReal.coe_ne_bot 1)]
      exact le_top
    · rw [Finset.fold_min_le]
      exact Or.inr ⟨q, Finset.mem_univ q, EReal.sub_le_sub le_rfl hq⟩

/-- Multiplying by two is dividing by one half, at the infinities too. -/
theorem mul_cTwo_eq_div_cHalf (x : EReal) : x * cTwo = Ideal.div x cHalf := by
  rw [cTwo_eq, cHalf_eq, Ideal.div_coe (by norm_num)]
  congr 2
  norm_num

/-- The unnormalised weights of the two spellings agree. -/
theorem wgtK_eq_wgt (row : Fin Q → EReal) (q : Fin Q) : wgtK row q = wgt row q := by
  unfold wgtK wgt
  rw [dminK_eq_dmin, mul_cTwo_eq_div_cHalf]

/-- The normalised weights of the two spellings agree: a sum started from zero is the sum. -/
theorem cxK_eq_cx (row : Fin Q → EReal) (q : Fin Q) : cxK row q = cx row q := by
  unfold cxK cx
  rw [cZero_eq, zero_add, wgtK_eq_wgt]
  congr 1
  exact Finset.sum_congr rfl (fun q' _ => wgtK_eq_wgt row q')

/-! ## The normalised weights are nonnegative -/

/-- The exponential is nonnegative everywhere. -/
private theorem exp_nonneg (x : EReal) : 0 ≤ Ideal.exp x := by
  induction x with
  | bot => rw [Ideal.exp_bot]
  | top => rw [Ideal.exp_top]; exact le_top
  | coe r => rw [Ideal.exp_coe]; exact EReal.coe_nonneg.mpr (Real.exp_pos r).le

/-- Off the bottom the exponential is positive. -/
private theorem exp_pos_of_ne_bot {x : EReal} (h : x ≠ ⊥) : 0 < Ideal.exp x := by
  induction x with
  | bot => exact absurd rfl h
  | top => rw [Ideal.exp_top]; exact EReal.zero_lt_top
  | coe r => rw [Ideal.exp_coe]; exact EReal.coe_pos.mpr (Real.exp_pos r)

/-- The quotient of an extended real by itself plus a positive real is never the top: at either infinity
    the divisor's inverse is zero, a real divisor off zero gives a real, and a zero divisor means the
    numerator is negative. -/
private theorem div_self_add_pos_ne_top (a : EReal) {e : ℝ} (he : 0 < e) :
    Ideal.div a (a + (e : EReal)) ≠ ⊤ := by
  induction a with
  | bot =>
    rw [EReal.bot_add, Ideal.div, if_neg EReal.bot_ne_zero, EReal.inv_bot, mul_zero]
    exact EReal.zero_ne_top
  | top =>
    rw [EReal.top_add_coe, Ideal.div, if_neg EReal.top_ne_zero, EReal.inv_top, mul_zero]
    exact EReal.zero_ne_top
  | coe r =>
    rw [← EReal.coe_add]
    by_cases h0 : r + e = 0
    · have hr : ¬ (0 : EReal) < (r : EReal) := by
        rw [not_lt]; exact EReal.coe_nonpos.mpr (by linarith)
      rw [h0, Ideal.div, EReal.coe_zero, if_pos rfl, if_neg hr]
      exact bot_ne_top
    · rw [Ideal.div_coe h0, ← EReal.coe_mul]
      exact EReal.coe_ne_top _

/-- One minus anything but the top is not the bottom. -/
private theorem cOne_sub_ne_bot {d : EReal} (h : d ≠ ⊤) : cOne - d ≠ ⊥ := by
  rw [cOne_eq, ← EReal.coe_one]
  induction d with
  | bot => rw [EReal.coe_sub_bot]; exact top_ne_bot
  | top => exact absurd rfl h
  | coe r => rw [← EReal.coe_sub]; exact EReal.coe_ne_bot _

/-- Dividing by one half keeps off the bottom. -/
private theorem div_cHalf_ne_bot {y : EReal} (h : y ≠ ⊥) : Ideal.div y cHalf ≠ ⊥ := by
  rw [← mul_cTwo_eq_div_cHalf, cTwo_eq]
  induction y with
  | bot => exact absurd rfl h
  | top => rw [EReal.top_mul_coe_of_pos (by norm_num)]; exact top_ne_bot
  | coe r => rw [← EReal.coe_mul]; exact EReal.coe_ne_bot _

/-- Every weight is nonnegative. -/
private theorem wgt_nonneg (row : Fin Q → EReal) (q : Fin Q) : 0 ≤ wgt row q := by
  unfold wgt; exact exp_nonneg _

/-- A nonempty row has a column where its minimal distance is attained. -/
private theorem dmin_attained (row : Fin Q → EReal) (q : Fin Q) :
    ∃ q0 : Fin Q, dmin row = cOne - row q0 := by
  have hle : ∀ q' : Fin Q, dmin row ≤ cOne - row q' := by
    intro q'
    unfold dmin
    rw [Finset.fold_min_le]; exact Or.inr ⟨q', Finset.mem_univ _, le_rfl⟩
  have h : (Finset.univ : Finset (Fin Q)).fold min cPinf (fun q => cOne - row q) ≤ dmin row := le_rfl
  rw [Finset.fold_min_le] at h
  rcases h with htop | ⟨q0, _, hq0⟩
  · rw [cPinf_eq, top_le_iff] at htop
    refine ⟨q, le_antisymm (hle q) ?_⟩
    rw [htop]; exact le_top
  · exact ⟨q0, le_antisymm (hle q0) hq0⟩

/-- Where the minimal distance is attained the weight is positive. -/
private theorem wgt_pos_of_attained (row : Fin Q → EReal) (q0 : Fin Q)
    (h : dmin row = cOne - row q0) : 0 < wgt row q0 := by
  obtain ⟨e, he, hE⟩ := cEps_pos
  unfold wgt
  apply exp_pos_of_ne_bot
  apply div_cHalf_ne_bot
  apply cOne_sub_ne_bot
  rw [← h, hE]
  exact div_self_add_pos_ne_top _ he

/-- The sum a row is normalised by is positive. -/
private theorem sum_wgt_pos (row : Fin Q → EReal) (q : Fin Q) :
    0 < cZero + ∑ q' : Fin Q, wgt row q' := by
  obtain ⟨q0, hq0⟩ := dmin_attained row q
  rw [cZero_eq, zero_add]
  calc (0 : EReal) < wgt row q0 := wgt_pos_of_attained row q0 hq0
    _ ≤ ∑ q' : Fin Q, wgt row q' :=
      Finset.single_le_sum (fun i _ => wgt_nonneg row i) (Finset.mem_univ q0)

/-- A nonnegative extended real over a positive one is nonnegative. -/
private theorem div_nonneg_of_pos {w S : EReal} (hw : 0 ≤ w) (hS : 0 < S) : 0 ≤ Ideal.div w S := by
  rw [Ideal.div, if_neg hS.ne']
  exact EReal.mul_nonneg hw (EReal.inv_nonneg_of_nonneg hS.le)

/-- The normalised weights are nonnegative. -/
theorem cx_nonneg (row : Fin Q → EReal) (q : Fin Q) : 0 ≤ cx row q := by
  unfold cx
  exact div_nonneg_of_pos (wgt_nonneg row q) (sum_wgt_pos row q)

end Cert.Contextual

end
-- ==== Proof.Accum.lean ====
/-
  The accumulator after each grid point. Within a batch entry the eight tiles are visited in order; after tile
  `j` every row of the accumulator holds, in column `q`, the maximum — started from zero — of column `q`'s
  normalised weights over the rows `0 … 512 j + 511` of that batch entry. A first tile starts again from zero.
  After the last tile this is the maximum over all 4096 rows, and the output block is the mean over the columns.
-/
import proofs.«131593_j45775761441353_1_alg».proof.Proof.Pieces
import proofs.«131593_j45775761441353_1_alg».proof.Proof.Payload
import proofs.«131593_j45775761441353_1_alg».proof.Proof.Blocks
import proofs.«131593_j45775761441353_1_alg».proof.Proof.Algebra

set_option maxRecDepth 16384

noncomputable section

open Idealize.ShloMosaic Idealize.ShloMosaic.TcCoe Idealize.SL.Sem

namespace Cert.Contextual.Accum

open Cert.KernelIdeal Cert.KernelIdeal.Gen Cert.Contextual Cert.Contextual.Pieces Cert.Contextual.Payload Cert.Contextual.Blocks ValueIdx

variable (m : (ℓ : Loc nD τ sig) → Buf (Elt Ideal) ℓ)

/-- The first array the region is launched on: positions by channels, per batch entry. -/
def arrX (c : Dev nD) : S4x4096x256.Idx → EReal := V m c main_v23

/-- The second array the region is launched on: channels by positions, per batch entry. -/
def arrY (c : Dev nD) : S4x256x4096.Idx → EReal := V m c main_v24

/-- The similarity matrix of batch entry `n`, from the two arrays the region is launched on. -/
def simK (c : Dev nD) (n : Fin 4) (p q : Fin 4096) : EReal :=
  ∑ ch : Fin 256, arrX m c (ix3 n p ch) * arrY m c (ix3 n ch q)

/-- Column `q`'s normalised weights in batch entry `n`, row by row. -/
def colw (c : Dev nD) (n : Fin 4) (q : Fin 4096) (p : Fin 4096) : EReal := cx (fun q' => simK m c n p q') q

/-- A tile's similarities are the batch entry's, at the tile's rows. -/
theorem tsim_eq (c : Dev nD) (t : Fin cfg0.N) (r : Fin 512) (q : Fin 4096) :
    tsim (iblk m c 0 t) (iblk m c 1 t) r q = simK m c (bat t) (trow t r) q :=
  Finset.sum_congr rfl fun ch _ => congrArg₂ (fun a b : EReal => a * b) (iblk0_apply m c t r ch) (iblk1_apply m c t ch q)

/-- One tile's update carries the running maximum from the rows below `512 j` to the rows below `512 j + 512`. -/
theorem tile_step (c : Dev nD) (t : Fin cfg0.N) (prev : Vec Ideal S8x4096 .f32) (r : Fin 8) (q : Fin 4096)
    (hprev : prev (ix2 r q) = runmax (colw m c (bat t) q) (512 * (t.val % 8))) :
    k0_pay3 (F := Ideal) (iblk m c 0 t) (iblk m c 1 t) prev (ix2 r q)
      = runmax (colw m c (bat t) q) (512 * (t.val % 8) + 512) := by
  refine (pay3_apply (iblk m c 0 t) (iblk m c 1 t) prev r q).trans ?_
  rw [hprev, runmax_step 512 (t.val % 8) (colw m c (bat t) q) (by omega)]
  refine congrArg (max _) ?_
  refine congrArg (fun f => (Finset.univ : Finset (Fin 512)).fold max cNinf f) (funext fun p => ?_)
  rw [cxK_eq_cx]
  exact congrArg (fun row => cx row q) (funext fun q' => tsim_eq m c t p q')

/-- At a first tile the accumulator is the update of the zero block. -/
theorem snd_A (c : Dev nD) (t : Fin cfg0.N) (h0 : t.val % 8 = 0) (h1 : ¬t.val % 8 = 7) :
    (outsAt0 m c t.val t.isLt).2 = k0_pay3 (F := Ideal) (iblk m c 0 t) (iblk m c 1 t) (k0_pay2 (F := Ideal)) := by
  rw [outsAt0_A m c t h0 h1]
  dsimp only
  exact scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At a later tile it is the update of what the point before left. -/
theorem snd_B (c : Dev nD) (t : Fin cfg0.N) (h0 : ¬t.val % 8 = 0) (h1 : ¬t.val % 8 = 7) :
    (outsAt0 m c t.val t.isLt).2 = k0_pay3 (F := Ideal) (iblk m c 0 t) (iblk m c 1 t) (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At a last tile likewise. -/
theorem snd_C (c : Dev nD) (t : Fin cfg0.N) (h0 : ¬t.val % 8 = 0) (h1 : t.val % 8 = 7) :
    (outsAt0 m c t.val t.isLt).2 = k0_pay3 (F := Ideal) (iblk m c 0 t) (iblk m c 1 t) (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- The accumulator after point `t`, given what the point before left when `t` is not a first tile. -/
theorem acc_step (c : Dev nD) (t : Fin cfg0.N) (r : Fin 8) (q : Fin 4096)
    (ih : ∀ hp : t.val - 1 < cfg0.N, ¬t.val % 8 = 0 →
      (outsAt0 m c (t.val - 1) hp).2 (ix2 r q) = runmax (colw m c (bat t) q) (512 * (t.val % 8))) :
    (outsAt0 m c t.val t.isLt).2 (ix2 r q) = runmax (colw m c (bat t) q) (512 * (t.val % 8) + 512) := by
  have hN : t.val < 32 := lt_of_lt_of_eq t.isLt N32
  by_cases h0 : t.val % 8 = 0
  · have h1 : ¬t.val % 8 = 7 := by omega
    refine (congrFun (snd_A m c t h0 h1) (ix2 r q)).trans (tile_step m c t (k0_pay2 (F := Ideal)) r q ?_)
    rw [h0, Nat.mul_zero, runmax_zero]
    exact pay2_apply r q
  · by_cases h1 : t.val % 8 = 7
    · exact (congrFun (snd_C m c t h0 h1) (ix2 r q)).trans (tile_step m c t _ r q (ih _ h0))
    · exact (congrFun (snd_B m c t h0 h1) (ix2 r q)).trans (tile_step m c t _ r q (ih _ h0))

/-- THE ACCUMULATOR after every point: the running maximum over the rows of the tiles so far. -/
theorem acc_eq (c : Dev nD) : ∀ (n : ℕ) (h : n < cfg0.N) (r : Fin 8) (q : Fin 4096),
    (outsAt0 m c n h).2 (ix2 r q) = runmax (colw m c (bat ⟨n, h⟩) q) (512 * (n % 8) + 512) := by
  intro n
  induction n with
  | zero =>
    intro h r q
    exact acc_step m c ⟨0, h⟩ r q (fun _ h0 => absurd (Nat.zero_mod 8) h0)
  | succ k ih =>
    intro h r q
    refine acc_step m c ⟨k + 1, h⟩ r q (fun hp h0 => ?_)
    have hk : k < cfg0.N := Nat.lt_of_succ_lt h
    have e := ih hk r q
    have hb : bat ⟨k, hk⟩ = bat ⟨k + 1, h⟩ := Fin.ext (by
      show k / 8 = (k + 1) / 8
      have : ¬(k + 1) % 8 = 0 := h0
      omega)
    have hr : 512 * (k % 8) + 512 = 512 * ((k + 1) % 8) := by
      have : ¬(k + 1) % 8 = 0 := h0
      omega
    rw [hb, hr] at e
    exact e

end Cert.Contextual.Accum

end
-- ==== Proof.Final.lean ====
/-
  The result array of the region. The output window's block of batch entry `n` is written once, at the last tile of
  that batch entry, and holds in every lane the mean over the columns of the accumulator's first row — by then the
  maximum of the normalised weights over all 4096 rows, the starting zero absorbed because the weights are
  nonnegative. The four blocks tile the array, so after the region the array holds, at `(n, 0, l)`, the
  specification's mean of column maxima of batch entry `n`'s similarity matrix.
-/
import proofs.«131593_j45775761441353_1_alg».proof.Proof.Accum

set_option maxRecDepth 16384

noncomputable section

open Idealize.ShloMosaic Idealize.ShloMosaic.TcCoe Idealize.SL.Sem
open Idealize.ShloMosaic.Pipeline (Dat)

namespace Cert.Contextual.Final

open Cert.KernelIdeal Cert.KernelIdeal.Gen Cert.Contextual Cert.Contextual.Pieces Cert.Contextual.Payload Cert.Contextual.Blocks
open Cert.Contextual.Accum ValueIdx

variable (m : (ℓ : Loc nD τ sig) → Buf (Elt Ideal) ℓ)

/-- The first row of an accumulator, column by column. -/
theorem row0_apply (v : Vec Ideal S8x4096 .f32) (q : Fin 4096) : row0 v (ix2 (0 : Fin 1) q) = v (ix2 (0 : Fin 8) q) := by
  unfold row0
  refine congrArg v (funext fun a => Fin.ext ?_)
  match a with
  | ⟨0, _⟩ => rfl
  | ⟨1, _⟩ => show 0 + 1 * q.val = q.val; omega

/-- After a last tile every column of the accumulator holds the maximum over all rows of the batch entry. -/
theorem acc_last (c : Dev nD) (t : Fin cfg0.N) (h7 : t.val % 8 = 7) (r : Fin 8) (q : Fin 4096) :
    (outsAt0 m c t.val t.isLt).2 (ix2 r q) = colmax (simK m c (bat t)) q := by
  refine (acc_eq m c t.val t.isLt r q).trans ?_
  rw [h7]
  show runmax (colw m c (bat t) q) 4096 = _
  rw [runmax_all (colw m c (bat t) q) (by decide) (fun p => cx_nonneg _ q)]
  rfl

/-- The output block written at a last tile: in every lane, the batch entry's mean of column maxima. -/
theorem out_eq (c : Dev nD) (t : Fin cfg0.N) (h7 : t.val % 8 = 7) (l : Fin 128) :
    (outsAt0 m c t.val t.isLt).1 (ix3 (0 : Fin 1) (0 : Fin 1) l) = rowmean (simK m c (bat t)) := by
  have h0 : ¬t.val % 8 = 0 := by omega
  have e1 : (outsAt0 m c t.val t.isLt).1
      = k0_pay1 (F := Ideal) (row0 (k0_pay3 (F := Ideal) (iblk m c 0 t) (iblk m c 1 t) (outsAt0 m c (t.val - 1) (Nat.lt_of_le_of_lt (Nat.sub_le _ _) t.isLt)).2)) := by
    rw [outsAt0_C m c t h0 h7]
    dsimp only
    exact out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2
  refine (congrFun e1 _).trans ?_
  refine (pay1_apply _ l).trans ?_
  unfold rowmean
  rw [cZero_eq, zero_add]
  refine congrArg (fun z => Ideal.div z cCols) (Finset.sum_congr rfl fun q _ => ?_)
  refine (row0_apply _ q).trans ?_
  exact (congrFun (snd_C m c t h0 h7) (ix2 (0 : Fin 8) q)).symm.trans (acc_last m c t h7 0 q)

/-- The same at any index of the block. -/
theorem out_eq' (c : Dev nD) (t : Fin cfg0.N) (h7 : t.val % 8 = 7) (j : S1x1x128.Idx) :
    (outsAt0 m c t.val t.isLt).1 j = rowmean (simK m c (bat t)) := by
  have hj : j = ix3 (0 : Fin 1) (0 : Fin 1) (j 2) := by
    funext a
    apply Fin.ext
    match a with
    | ⟨0, _⟩ => have h : (j 0).val < 1 := (j 0).isLt; show (j 0).val = 0; omega
    | ⟨1, _⟩ => have h : (j 1).val < 1 := (j 1).isLt; show (j 1).val = 0; omega
    | ⟨2, _⟩ => rfl
  rw [hj]
  exact out_eq m c t h7 (j 2)

/-- What the result array holds after the region: at batch entry `n`, every lane, the mean of column maxima. -/
def G (c : Dev nD) : S4x1x128.Idx → EReal := fun i => rowmean (simK m c (i 0))

/-- What a last tile writes back is its block of `G`. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  show (cfg0.win 2).cut (grid0.coords t) ((dats m 0 c).after 2 t) = _
  rw [after0_2]
  funext j
  show (outsAt0 m c t.val t.isLt).1 j = G m c (((cfg0.win 2).blk t).view.emb j)
  refine (out_eq' m c t h7 j).trans ?_
  unfold G
  refine congrArg (fun n => rowmean (simK m c n)) (Fin.ext ?_)
  show t.val / 8 = win0_2.index t 0 * 1 + 1 * (j 0).val
  have h : (j 0).val < 1 := (j 0).isLt
  rw [(idx2 t).1]
  omega

/-- An index of the result array is in point `t`'s block iff each coordinate is in the block's range on its axis. -/
theorem mem_blk (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v25).slice (win0_2.rect t)).set ↔ _
  rw [View.set_slice_whole, Rect.mem_set_unit]
  exact Iff.rfl

/-- Every index of the result array lies in the block of its batch entry's last tile. -/
theorem cover (i : S4x1x128.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 128 := (i 2).isLt
  obtain ⟨t, ht⟩ : ∃ t : Fin cfg0.N, t.val = 8 * (i 0).val + 7 :=
    ⟨⟨8 * (i 0).val + 7, by rw [N32]; omega⟩, rfl⟩
  refine ⟨t, (flush0_2 t).mpr (by rw [ht]; omega), ?_⟩
  obtain ⟨e0, e1, e2⟩ := idx2 t
  rw [ht] at e0
  rw [mem_blk]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 128 ≤ (i 2).val ∧ (i 2).val < win0_2.index t 2 * 128 + 128
    rw [e2]; omega

/-- THE RESULT ARRAY after the region. -/
theorem final (c : Dev nD) : (dats m 0 c).arrAt 2 cfg0.N = G m c :=
  (dats m 0 c).arrAt_eq_of_cover 2 (G m c) (flushed_eq m c) cover

end Cert.Contextual.Final

end
-- ==== Proof.Prefix.lean ====
/-
  The two arrays the region is launched on are the reference's two feature arrays. Both programs centre each
  input by the channel means of the second, divide by the norm over the channels, and flatten the two spatial
  axes; one program then swaps the last two axes of the first array and narrows the float format of both. A change
  of float format is the identity on extended reals, so entry (n, p, ch) of the first launched array is entry
  (n, ch, p) of the first feature array, and the second launched array is the second feature array entry by entry.
-/
import proofs.«131593_j45775761441353_1_alg».proof.Proof.Gen.KernelIdeal.Frame
import proofs.«131593_j45775761441353_1_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic
set_option maxRecDepth 16384
noncomputable section
open Idealize.ShloMosaic Idealize.ShloMosaic.TcCoe Idealize.SL.Sem
namespace Cert.Contextual.Prefix
open Cert.KernelIdeal Cert.KernelIdeal.Gen ValueIdx
variable (m : (ℓ : Loc nD τ sig) → Buf (Elt Ideal) ℓ)

/-- The second array as the region finds it: the second feature array, narrowed. -/
theorem arr1_eq (c : Dev nD) :
    @Eq (S4x256x4096.Idx → EReal) (V m c main_v24)
      (truncf (F := Ideal) (s := S4x256x4096) (φ := .f32) .bf16
        (Cert.ReferenceIdeal.Read.val_main_v21 (F := Ideal) (m ((c : Thread nD τ).loc main_arg1))) bitsLt_bf16_f32) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  open Idealize.ShloMosaic.StableHlo in after_results_simp
  rfl

/-- The first array as the region finds it: the first feature array, transposed and narrowed. -/
theorem arr0_eq (c : Dev nD) :
    @Eq (S4x4096x256.Idx → EReal) (V m c main_v23)
      (truncf (F := Ideal) (s := S4x4096x256) (φ := .f32) .bf16
        (transpose S4x4096x256 [0, 2, 1]
          (Cert.ReferenceIdeal.Read.val_main_v20 (F := Ideal) (m ((c : Thread nD τ).loc main_arg0))
            (m ((c : Thread nD τ).loc main_arg1)))
          transposes_S4x256x4096_S4x4096x256_0_2_1) bitsLt_bf16_f32) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  open Idealize.ShloMosaic.StableHlo in after_results_simp
  rfl

/-- Entry `(n, p, ch)` of the first array is entry `(n, ch, p)` of the first feature array: a change of float
    format is the identity on extended reals, and the transpose swaps the last two coordinates. -/
theorem arr0_apply (c : Dev nD) (n : Fin 4) (p : Fin 4096) (ch : Fin 256) :
    (V m c main_v23 : S4x4096x256.Idx → EReal) (ix3 n p ch)
      = Cert.ReferenceIdeal.Read.val_main_v20 (F := Ideal) (m ((c : Thread nD τ).loc main_arg0)) (m ((c : Thread nD τ).loc main_arg1)) (ix3 n ch p) := by
  refine (congrFun (arr0_eq m c) (ix3 n p ch)).trans ?_
  refine (truncf_apply (φ := .f32) (ψ := .bf16) _ bitsLt_bf16_f32 (ix3 n p ch)).trans ?_
  exact transpose_apply _ _ _ _ _ (fun b => match b with | ⟨0, _⟩ => rfl | ⟨1, _⟩ => rfl | ⟨2, _⟩ => rfl)

/-- Entry `(n, ch, q)` of the second array is that entry of the second feature array. -/
theorem arr1_apply (c : Dev nD) (n : Fin 4) (ch : Fin 256) (q : Fin 4096) :
    (V m c main_v24 : S4x256x4096.Idx → EReal) (ix3 n ch q)
      = Cert.ReferenceIdeal.Read.val_main_v21 (F := Ideal) (m ((c : Thread nD τ).loc main_arg1)) (ix3 n ch q) := by
  refine (congrFun (arr1_eq m c) (ix3 n ch q)).trans ?_
  exact truncf_apply (φ := .f32) (ψ := .bf16) _ bitsLt_bf16_f32 (ix3 n ch q)

end Cert.Contextual.Prefix
end
-- ==== Proof.Tail.lean ====
/-
  Both programs finish with the same operations on the vector of the four batch entries: add the small constant,
  take the logarithm, negate, sum the four entries from zero and divide by four. One program takes that vector from
  lane 0 of an array of 4 by 1 by 128 (a slice of one lane, flattened); the other has it as a vector already.
-/
import proofs.«131593_j45775761441353_1_alg».proof.Proof.Gen.KernelIdeal.Frame
import proofs.«131593_j45775761441353_1_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic
set_option maxRecDepth 16384
noncomputable section
open Idealize.ShloMosaic Idealize.ShloMosaic.TcCoe Idealize.SL.Sem
namespace Cert.Contextual.Tail
open Cert.KernelIdeal Cert.KernelIdeal.Gen ValueIdx
variable (m : (ℓ : Loc nD τ sig) → Buf (Elt Ideal) ℓ)

/-- What both programs do last to the vector of the four batch entries: add the small constant, take the logarithm,
    negate, sum the four entries from zero, divide by four. -/
def tail (z : Cert.ReferenceIdeal.S4.Idx → EReal) : Cert.ReferenceIdeal.S_.Idx → EReal :=
  Host.divf (F := Ideal)
    (Host.reduceAdd (F := Ideal)
      (Host.negf (F := Ideal) (Host.log (F := Ideal) (addf (F := Ideal) z
        (broadcastInDim Cert.ReferenceIdeal.S4 ![] Cert.ReferenceIdeal.Gen.bcast_S_S4
          (constant (F := Ideal) Cert.ReferenceIdeal.S_ .f32 0x3727C5AC#32)))))
      (constant (F := Ideal) Cert.ReferenceIdeal.S_ .f32 0x00000000#32)
      Cert.ReferenceIdeal.Gen.reducesTo_S4_S_d0 Cert.ReferenceIdeal.Gen.h_S_)
    (constant (F := Ideal) Cert.ReferenceIdeal.S_ .f32 0x40800000#32)

/-- The reference's result is the tail of its vector of batch entries. -/
theorem ref_tail (x0 x1 : (⟨Cert.ReferenceIdeal.S4x256x64x64, .f32⟩ : BufTy).Contents (Elt Ideal)) :
    Cert.ReferenceIdeal.Read.val_main_v49 (F := Ideal) x0 x1
      = tail (Cert.ReferenceIdeal.Read.val_main_v43 (F := Ideal) x0 x1) := by
  unfold Cert.ReferenceIdeal.Read.val_main_v49 Cert.ReferenceIdeal.Read.val_main_v48 Cert.ReferenceIdeal.Read.val_main_v47
    Cert.ReferenceIdeal.Read.val_main_v46 Cert.ReferenceIdeal.Read.val_main_v45 Cert.ReferenceIdeal.Read.val_main_v44
    Cert.ReferenceIdeal.Read.val_main_cst_14 Cert.ReferenceIdeal.Read.val_main_cst_15 Cert.ReferenceIdeal.Read.val_main_cst_16
  rfl

/-- Lane 0 of an array of 4 by 1 by 128, as a vector of 4, reads at `i` the array at `(i, 0, 0)`. -/
theorem lane0_apply (A : S4x1x128.Idx → EReal) (i : S4.Idx) :
    shapeCast S4 (extractStridedSlice S4x1x1 ![0, 0, 0] A slices_S4x1x128_S4x1x1_0_0_0) shapeCasts_S4x1x1_S4 i
      = A (ix3 (i 0) (0 : Fin 1) (0 : Fin 128)) := by
  refine (shapeCast_apply _ shapeCasts_S4x1x1_S4 i (ix3 (i 0) (0 : Fin 1) (0 : Fin 1)) ?_).trans ?_
  · rw [Shape.rowMajor_val_three, Shape.rowMajor_val_one]
    show ((i 0).val * 1 + 0) * 1 + 0 = (i 0).val
    omega
  · exact extractStridedSlice_apply _ _ _ _ _
      (fun a => match a with | ⟨0, _⟩ => (Nat.zero_add _).symm | ⟨1, _⟩ => rfl | ⟨2, _⟩ => rfl)

/-- The kernel's result is the same tail, of lane 0 of the region's result array. -/
theorem ker_tail (c : Dev nD) :
    @Eq (Cert.ReferenceIdeal.S_.Idx → EReal)
      (Pipeline.afterTail₀ cfgs (dats m) 0 (V0 m) [hostOps1] c main_v33)
      (tail (fun i => ((dats m 0 c).arrAt 2 cfg0.N : S4x1x128.Idx → EReal) (ix3 (i 0) (0 : Fin 1) (0 : Fin 128)))) := by
  unfold Pipeline.afterTail₀
  show StableHlo.after hostOps1 _ (Proc.devRef .tc main_v33) = _
  open Idealize.ShloMosaic.StableHlo in after_results_simp
  refine congrArg tail (funext fun i => ?_)
  refine (lane0_apply _ i).trans ?_
  exact congrFun (Pipeline.withArrays_arr spec0 launch0.win.arr_inj c _ _ 2) _

end Cert.Contextual.Tail
end
-- ==== Proof.RefSide.lean ====
/-
  The reference program's mean of column maxima is the specification's row mean of the similarity matrix.

  The reference forms, for every batch entry, the matrix of similarities of the positions of two feature arrays,
  and then works row by row: the distances one minus the similarity, the row's minimal distance, the quotient by
  that minimum plus a small constant, the exponential of one minus the quotient over one half, and the division by
  the row's sum. Over the rows it takes the column-wise maximum, and over the columns the mean. Each step below
  reads one of these arrays at explicit coordinates and names it by the specification's function of the
  similarity matrix; the constants are the same words on both sides and are never evaluated.
-/
import proofs.«131593_j45775761441353_1_alg».proof.Proof.Spec
import proofs.«131593_j45775761441353_1_alg».proof.Proof.Gen.ReferenceIdeal.Read
import Idealize.ShloMosaic.PureOps.Ideal.Laws
noncomputable section
namespace Cert.Contextual.Ref
open Idealize.ShloMosaic Idealize.ShloMosaic.TcCoe Idealize.SL.Sem Cert.ReferenceIdeal Cert.ReferenceIdeal.Gen Cert.ReferenceIdeal.Read Cert.Contextual

/-- The array type of the two arguments. -/
abbrev Arg : Type := (⟨S4x256x64x64, .f32⟩ : BufTy).Contents (Elt Ideal)

/-- The similarity matrix of batch entry `n`, of the two reshaped feature arrays. -/
abbrev smat (x0 x1 : Arg) (n : Fin 4) (p q : Fin 4096) : EReal :=
  sim (val_main_v20 (F := Ideal) x0 x1) (val_main_v21 (F := Ideal) x1) n p q

/-! ## The similarities and the distances -/

/-- The contraction over the channels, at batch entry `n`, row `p`, column `q`, is the similarity. -/
theorem v22_at (x0 x1 : Arg) (n : Fin 4) (p q : Fin 4096) :
    val_main_v22 (F := Ideal) x0 x1 (ValueIdx.ix3 n p q) = smat x0 x1 n p q := by
  rw [val_main_v22_apply]
  unfold smat sim
  refine Finset.sum_congr rfl fun c _ => ?_
  have el : lidx_main_v22 (ValueIdx.ix3 n p q) c = ValueIdx.ix3 n c p :=
    funext fun a => by match a with | ⟨0, _⟩ => rfl | ⟨1, _⟩ => rfl | ⟨2, _⟩ => rfl
  have er : ridx_main_v22 (ValueIdx.ix3 n p q) c = ValueIdx.ix3 n c q :=
    funext fun a => by match a with | ⟨0, _⟩ => rfl | ⟨1, _⟩ => rfl | ⟨2, _⟩ => rfl
  rw [el, er]

/-- The distance: one minus the similarity. -/
theorem v24_at (x0 x1 : Arg) (n : Fin 4) (p q : Fin 4096) :
    val_main_v24 (F := Ideal) x0 x1 (ValueIdx.ix3 n p q) = cOne - smat x0 x1 n p q := by
  rw [val_main_v24_apply, val_main_v23_apply, val_main_cst_5_apply, v22_at]
  rfl

/-! ## The row's minimal distance -/

/-- The axis-2 reduction's shapes. -/
theorem red2 : S4x4096x4096.Reduces [2] S4x4096 := by decide

/-- The source index over `(n, p)` with coordinate `q` on the dropped last axis. -/
theorem lift2 (n : Fin 4) (p q : Fin 4096) :
    red2.lift (ValueIdx.ix2 n p) q = ValueIdx.ix3 n p q :=
  funext fun a => Fin.ext (by match a with | ⟨0, _⟩ => rfl | ⟨1, _⟩ => rfl | ⟨2, _⟩ => rfl)

/-- A minimum-reduction over the last axis, at `(n, p)`, is the fold of the minimum over the row's columns. -/
theorem reduce_min_at (y : S4x4096x4096.Idx → EReal) (init : S_.Idx → EReal) (n : Fin 4) (p : Fin 4096) :
    Host.reduce (FloatOps.minimumf (F := Ideal) (φ := .f32)) y init reducesTo_S4x4096x4096_S4x4096_d2 h_S_ (ValueIdx.ix2 n p)
      = (Finset.univ : Finset (Fin 4096)).fold min (init (Shape.Idx.first h_S_)) (fun q => y (ValueIdx.ix3 n p q)) := by
  rw [Host.reduce_eq_fold_single (FloatOps.minimumf (F := Ideal) (φ := .f32)) y init
    reducesTo_S4x4096x4096_S4x4096_d2 red2 h_S_ (ValueIdx.ix2 n p)]
  exact congrArg (fun f : Fin 4096 → EReal => (Finset.univ : Finset (Fin 4096)).fold min (init (Shape.Idx.first h_S_)) f)
    (funext fun q : Fin 4096 => congrArg y (lift2 n p q))

/-- The minimum of a row's distances, started from the top element. -/
theorem v25_at (x0 x1 : Arg) (n : Fin 4) (p : Fin 4096) :
    val_main_v25 (F := Ideal) x0 x1 (ValueIdx.ix2 n p) = dmin (smat x0 x1 n p) := by
  unfold val_main_v25
  rw [reduce_min_at, val_main_cst_6_apply]
  simp only [v24_at]
  unfold dmin cPinf
  rfl

/-! ## A row's weights -/

/-- The divisor, broadcast along the row: the row's minimal distance plus the small constant. -/
theorem v29_at (x0 x1 : Arg) (n : Fin 4) (p q : Fin 4096) :
    val_main_v29 (F := Ideal) x0 x1 (ValueIdx.ix3 n p q) = dmin (smat x0 x1 n p) + cEps := by
  have e : idx_main_v26 (idx_main_v29 (ValueIdx.ix3 n p q)) = ValueIdx.ix2 n p :=
    funext fun a => by match a with | ⟨0, _⟩ => rfl | ⟨1, _⟩ => rfl
  rw [val_main_v29_apply, val_main_v28_apply, val_main_v26_apply, e, v25_at, val_main_v27_apply,
    val_main_cst_7_apply]
  rfl

/-- The distance over the divisor. -/
theorem v30_at (x0 x1 : Arg) (n : Fin 4) (p q : Fin 4096) :
    val_main_v30 (F := Ideal) x0 x1 (ValueIdx.ix3 n p q)
      = Ideal.div (cOne - smat x0 x1 n p q) (dmin (smat x0 x1 n p) + cEps) := by
  rw [val_main_v30_apply, v24_at, v29_at]
  rfl

/-- One minus that quotient. -/
theorem v32_at (x0 x1 : Arg) (n : Fin 4) (p q : Fin 4096) :
    val_main_v32 (F := Ideal) x0 x1 (ValueIdx.ix3 n p q)
      = cOne - Ideal.div (cOne - smat x0 x1 n p q) (dmin (smat x0 x1 n p) + cEps) := by
  rw [val_main_v32_apply, val_main_v31_apply, val_main_cst_8_apply, v30_at]
  rfl

/-- Divided by one half. -/
theorem v34_at (x0 x1 : Arg) (n : Fin 4) (p q : Fin 4096) :
    val_main_v34 (F := Ideal) x0 x1 (ValueIdx.ix3 n p q)
      = Ideal.div (cOne - Ideal.div (cOne - smat x0 x1 n p q) (dmin (smat x0 x1 n p) + cEps)) cHalf := by
  rw [val_main_v34_apply, v32_at, val_main_v33_apply, val_main_cst_9_apply]
  rfl

/-- The exponential: the unnormalised weight of column `q` in row `p`. -/
theorem v35_at (x0 x1 : Arg) (n : Fin 4) (p q : Fin 4096) :
    val_main_v35 (F := Ideal) x0 x1 (ValueIdx.ix3 n p q) = wgt (smat x0 x1 n p) q := by
  rw [val_main_v35_apply, v34_at]
  rfl

/-- The row's sum of weights, started from zero. -/
theorem v36_at (x0 x1 : Arg) (n : Fin 4) (p : Fin 4096) :
    val_main_v36 (F := Ideal) x0 x1 (ValueIdx.ix2 n p) = cZero + ∑ q : Fin 4096, wgt (smat x0 x1 n p) q := by
  rw [val_main_v36_apply, val_main_cst_10_apply]
  have e : ∀ k : Fin 4096, idx_main_v36 (ValueIdx.ix2 n p) k = ValueIdx.ix3 n p k := fun k =>
    funext fun a => by match a with | ⟨0, _⟩ => rfl | ⟨1, _⟩ => rfl | ⟨2, _⟩ => rfl
  simp only [e, v35_at]
  rfl

/-- The normalised weight of column `q` in row `p`. -/
theorem v39_at (x0 x1 : Arg) (n : Fin 4) (p q : Fin 4096) :
    val_main_v39 (F := Ideal) x0 x1 (ValueIdx.ix3 n p q) = cx (smat x0 x1 n p) q := by
  have e : idx_main_v37 (idx_main_v38 (ValueIdx.ix3 n p q)) = ValueIdx.ix2 n p :=
    funext fun a => by match a with | ⟨0, _⟩ => rfl | ⟨1, _⟩ => rfl
  rw [val_main_v39_apply, v35_at, val_main_v38_apply, val_main_v37_apply, e, v36_at]
  rfl

/-! ## Over the rows, then over the columns -/

/-- The axis-1 reduction's shapes. -/
theorem red1 : S4x4096x4096.Reduces [1] S4x4096 := by decide

/-- The source index over `(n, q)` with coordinate `p` on the dropped middle axis. -/
theorem lift1 (n : Fin 4) (q p : Fin 4096) :
    red1.lift (ValueIdx.ix2 n q) p = ValueIdx.ix3 n p q :=
  funext fun a => Fin.ext (by match a with | ⟨0, _⟩ => rfl | ⟨1, _⟩ => rfl | ⟨2, _⟩ => rfl)

/-- A maximum-reduction over the middle axis, at `(n, q)`, is the fold of the maximum over the column's rows. -/
theorem reduce_max_at (y : S4x4096x4096.Idx → EReal) (init : S_.Idx → EReal) (n : Fin 4) (q : Fin 4096) :
    Host.reduce (FloatOps.maximumf (F := Ideal) (φ := .f32)) y init reducesTo_S4x4096x4096_S4x4096_d1 h_S_ (ValueIdx.ix2 n q)
      = (Finset.univ : Finset (Fin 4096)).fold max (init (Shape.Idx.first h_S_)) (fun p => y (ValueIdx.ix3 n p q)) := by
  rw [Host.reduce_eq_fold_single (FloatOps.maximumf (F := Ideal) (φ := .f32)) y init
    reducesTo_S4x4096x4096_S4x4096_d1 red1 h_S_ (ValueIdx.ix2 n q)]
  exact congrArg (fun f : Fin 4096 → EReal => (Finset.univ : Finset (Fin 4096)).fold max (init (Shape.Idx.first h_S_)) f)
    (funext fun p : Fin 4096 => congrArg y (lift1 n q p))

/-- The column-wise maximum of the normalised weights, started from the bottom element. -/
theorem v40_at (x0 x1 : Arg) (n : Fin 4) (q : Fin 4096) :
    val_main_v40 (F := Ideal) x0 x1 (ValueIdx.ix2 n q) = colmax (smat x0 x1 n) q := by
  unfold val_main_v40
  rw [reduce_max_at, val_main_cst_11_apply]
  simp only [v39_at]
  unfold colmax cNinf
  rfl

/-- The sum over the columns of the column-wise maxima, started from zero. -/
theorem v41_at (x0 x1 : Arg) (n : Fin 4) :
    val_main_v41 (F := Ideal) x0 x1 (ValueIdx.ix1 n) = cZero + ∑ q : Fin 4096, colmax (smat x0 x1 n) q := by
  rw [val_main_v41_apply, val_main_cst_12_apply]
  have e : ∀ k : Fin 4096, idx_main_v41 (ValueIdx.ix1 n) k = ValueIdx.ix2 n k := fun k =>
    funext fun a => by match a with | ⟨0, _⟩ => rfl | ⟨1, _⟩ => rfl
  simp only [e, v40_at]
  rfl

/-- The mean over the columns. -/
theorem v43_at (x0 x1 : Arg) (n : Fin 4) :
    val_main_v43 (F := Ideal) x0 x1 (ValueIdx.ix1 n) = rowmean (smat x0 x1 n) := by
  rw [val_main_v43_apply, v41_at, val_main_v42_apply, val_main_cst_13_apply]
  rfl

/-- The reference's mean of column maxima, at batch entry `i`, is the row mean of that entry's similarity matrix. -/
theorem mean_eq (x0 x1 : (⟨S4x256x64x64, .f32⟩ : BufTy).Contents (Elt Ideal)) (i : S4.Idx) :
    val_main_v43 (F := Ideal) x0 x1 i
      = rowmean (sim (val_main_v20 (F := Ideal) x0 x1) (val_main_v21 (F := Ideal) x1) (i 0)) := by
  exact (congrArg (val_main_v43 (F := Ideal) x0 x1) (ValueIdx.eq_ix1 i)).trans (v43_at x0 x1 (i 0))

end Cert.Contextual.Ref

end
-- ==== Proof.KernelRun.lean ====
/-
  The kernel's run, with its value. The two arrays the region is launched on are the reference's two feature
  arrays (the first transposed), so a batch entry's similarity matrix is the same on both sides; the region's result
  array then holds the specification's mean of column maxima, which is what the reference computes; and both
  programs end with the same six operations on that vector of four means.
-/
import proofs.«131593_j45775761441353_1_alg».proof.Proof.Final
import proofs.«131593_j45775761441353_1_alg».proof.Proof.Prefix
import proofs.«131593_j45775761441353_1_alg».proof.Proof.Tail
import proofs.«131593_j45775761441353_1_alg».proof.Proof.RefSide

set_option maxRecDepth 16384

noncomputable section

open Idealize.ShloMosaic Idealize.ShloMosaic.TcCoe Idealize.SL.Sem
open Idealize.ShloMosaic.Pipeline (Dat)

namespace Cert.Contextual.KRun

open Cert.KernelIdeal Cert.KernelIdeal.Gen Cert.Contextual Cert.Contextual.Accum Cert.Contextual.Final ValueIdx

variable (m : (ℓ : Loc nD τ sig) → Buf (Elt Ideal) ℓ) (ρ : Dev nD → PrngReg)

/-- The reference's first feature array, of the kernel's arguments. -/
abbrev featA (c : Dev nD) : (⟨3, ![4, 256, 4096]⟩ : Shape).Idx → EReal :=
  Cert.ReferenceIdeal.Read.val_main_v20 (F := Ideal) (m ((c : Thread nD τ).loc main_arg0)) (m ((c : Thread nD τ).loc main_arg1))

/-- The reference's second feature array, of the kernel's arguments. -/
abbrev featB (c : Dev nD) : (⟨3, ![4, 256, 4096]⟩ : Shape).Idx → EReal :=
  Cert.ReferenceIdeal.Read.val_main_v21 (F := Ideal) (m ((c : Thread nD τ).loc main_arg1))

/-- A batch entry's similarity matrix is the same on both sides. -/
theorem simK_eq (c : Dev nD) (n : Fin 4) : simK m c n = sim (featA m c) (featB m c) n := by
  funext p q
  exact Finset.sum_congr rfl fun ch _ =>
    congrArg₂ (fun a b : EReal => a * b) (Cert.Contextual.Prefix.arr0_apply m c n p ch) (Cert.Contextual.Prefix.arr1_apply m c n ch q)

/-- The reference's result, of the kernel's arguments. -/
def result (c : Dev nD) : Cert.ReferenceIdeal.S_.Idx → EReal :=
  Cert.ReferenceIdeal.Read.val_main_v49 (F := Ideal) (m ((c : Thread nD τ).loc main_arg0)) (m ((c : Thread nD τ).loc main_arg1))

/-- What the operations after the region leave in the result buffer is the reference's result. -/
theorem value (c : Dev nD) :
    @Eq (Cert.ReferenceIdeal.S_.Idx → EReal) (Pipeline.afterTail₀ cfgs (dats m) 0 (V0 m) [hostOps1] c main_v33) (result m c) := by
  refine (Cert.Contextual.Tail.ker_tail m c).trans ?_
  unfold result
  rw [Cert.Contextual.Tail.ref_tail]
  refine congrArg Cert.Contextual.Tail.tail (funext fun i => ?_)
  rw [final m c]
  show rowmean (simK m c (i 0)) = _
  rw [simK_eq m c (i 0)]
  exact (Cert.Contextual.Ref.mean_eq _ _ i).symm

/-- THE KERNEL'S RUN: every weakly fair execution terminates with the result buffer at the reference's result of the
    arguments, and the arguments unchanged. -/
theorem run : θ_run defs (onTc (τ := τ) (main (F := Ideal))) ⟨m, fun _ => 0, ρ⟩ (fun r => ∀ c : Dev nD,
      @Eq (Cert.ReferenceIdeal.S_.Idx → EReal) (r.2.mem ((c.tc : Thread nD τ).loc main_v33)) (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v33 (Pipeline.mem_restRefs_of main_v33 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Contextual.KRun

end
-- ==== Proof.lean ====
/-
  The contextual loss of two feature arrays `y`, `y_hat` : f32[4, 256, 64, 64], computed by a tiled kernel and by a
  plain reference, are the same function on the extended reals.

  Both programs centre the two arrays by the per-channel mean of `y_hat` and divide each position's 256-vector by its
  Euclidean norm; per batch entry `n` this gives a 4096 × 4096 similarity matrix `s` (a sum over the 256 channels of
  products). From a row of `s` both take the distances `1 - s`, divide by the row's minimal distance plus a small
  constant, map through `exp ((1 - ·) / (1/2))`, and normalise by the row's sum; the batch entry's value is the mean over
  the columns of the column-wise maximum of these normalised weights; the loss is the mean over the four batch entries of
  `-log (value + small constant)`.

  The kernel differs from the reference in four ways, none of which changes the value on the extended reals:
  it takes a row's minimal distance as one minus the row's maximal similarity (subtraction from a constant reverses the
  order); it multiplies by two where the reference divides by one half; it visits the rows in eight tiles of 512,
  keeping a running column-wise maximum that starts from ZERO at the first tile (the normalised weights are
  nonnegative, a row's sum being positive because at a column attaining the row's minimal distance the weight is
  positive, so the zero is absorbed); and it narrows its inputs to bf16, which is the identity on extended reals.
  No use is made of the inputs being finite.
-/
import proofs.«131593_j45775761441353_1_alg».proof.Defs
import proofs.«131593_j45775761441353_1_alg».proof.Proof.Gen.Kernel
import proofs.«131593_j45775761441353_1_alg».proof.Proof.Gen.Kernel.Skeleton
import proofs.«131593_j45775761441353_1_alg».proof.Proof.Gen.Kernel.Launch
import proofs.«131593_j45775761441353_1_alg».proof.Proof.Gen.Kernel.Points
import proofs.«131593_j45775761441353_1_alg».proof.Proof.Gen.Kernel.Frame
import proofs.«131593_j45775761441353_1_alg».proof.Proof.Gen.KernelIdeal
import proofs.«131593_j45775761441353_1_alg».proof.Proof.Gen.KernelIdeal.Skeleton
import proofs.«131593_j45775761441353_1_alg».proof.Proof.Gen.KernelIdeal.Launch
import proofs.«131593_j45775761441353_1_alg».proof.Proof.Gen.KernelIdeal.Points
import proofs.«131593_j45775761441353_1_alg».proof.Proof.Gen.KernelIdeal.Frame
import proofs.«131593_j45775761441353_1_alg».proof.Proof.Gen.ReferenceIdeal
import proofs.«131593_j45775761441353_1_alg».proof.Proof.Gen.Pre_finite_inputs
import proofs.«131593_j45775761441353_1_alg».proof.Proof.Gen.ReferenceIdeal.Run
import proofs.«131593_j45775761441353_1_alg».proof.Proof.Gen.ReferenceIdeal.Read
import proofs.«131593_j45775761441353_1_alg».proof.Proof.KernelRun
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- On the extended reals, from memories agreeing on the two arguments, both programs end with the same loss: the kernel's
    result buffer holds the reference's result of the arguments, and the reference's holds it by its own run. -/
theorem algebraic : Cert.algebraic_KernelIdeal_ReferenceIdeal := by
  intro m ρ m' ρ' _ hagree
  refine ⟨fun c => Cert.Contextual.KRun.result m c, Cert.Contextual.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
